-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1280x7x7 : Shape := ⟨4, ![512, 1280, 7, 7]⟩
abbrev S1x1280 : Shape := ⟨2, ![1, 1280]⟩
abbrev S1280x128 : Shape := ⟨2, ![1280, 128]⟩
abbrev S1x128 : Shape := ⟨2, ![1, 128]⟩
abbrev S_ : Shape := ⟨0, ![]⟩

class Facts : Prop where
  bcast_S_S512x1280x7x7 : S_.BroadcastsInDim S512x1280x7x7 (![] : Fin 0 → Fin S512x1280x7x7.rank)
  reducesTo_S512x1280x7x7_S_d0_1_2_3 : S512x1280x7x7.ReducesTo [0, 1, 2, 3] S_
  h_S_ : 0 < S_.numel
  bcast_S_S1x1280 : S_.BroadcastsInDim S1x1280 (![] : Fin 0 → Fin S1x1280.rank)
  reducesTo_S1x1280_S_d0_1 : S1x1280.ReducesTo [0, 1] S_
  bcast_S_S1280x128 : S_.BroadcastsInDim S1280x128 (![] : Fin 0 → Fin S1280x128.rank)
  reducesTo_S1280x128_S_d0_1 : S1280x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S1x128 .f32) (main_arg8 : FVec F S1x128 .f32) (main_arg9 : FVec F S1x128 .f32) (main_arg10 : FVec F S1x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x1280 .f32) (main_arg5 : FVec F S1280x128 .f32) (main_arg6 : FVec F S1x128 .f32) (main_arg7 : FVec F S1x128 .f32) (main_arg8 : FVec F S1x128 .f32) (main_arg9 : FVec F S1x128 .f32) (main_arg10 : FVec F S1x128 .f32) (main_v13 : IVec S_ 1) (main_v16 : IVec S1x1280 1) : IVec S_ 1 :=
  let main_c_5 : IVec S_ 1 := constantI S_ 1 1#1
  let main_v17 : IVec S_ 1 := (fun x v => Host.reduce IntOp.andi x v reducesTo_S1x1280_S_d0_1 h_S_) main_v16 main_c_5
  let main_v18 : IVec S_ 1 := andi main_v13 main_v17
  let main_v19 : FVec F S1x1280 .f32 := Host.absf main_arg4
  let main_cst_6 : FVec F S_ .f32 := constant S_ .f32 0x7F800000#32
  let main_v20 : FVec F S1x1280 .f32 := broadcastInDim S1x1280 ![] bcast_S_S1x1280 main_cst_6
  let main_v21 : IVec S1x1280 1 := cmpf .olt main_v19 main_v20
  let main_c_7 : IVec S_ 1 := constantI S_ 1 1#1
  let main_v22 : IVec S_ 1 := (fun x v => Host.reduce IntOp.andi x v reducesTo_S1x1280_S_d0_1 h_S_) main_v21 main_c_7
  let main_v23 : IVec S_ 1 := andi main_v18 main_v22
  let main_v24 : FVec F S1280x128 .f32 := Host.absf main_arg5
  let main_cst_8 : FVec F S_ .f32 := constant S_ .f32 0x7F800000#32
  let main_v25 : FVec F S1280x128 .f32 := broadcastInDim S1280x128 ![] bcast_S_S1280x128 main_cst_8
  let main_v26 : IVec S1280x128 1 := cmpf .olt main_v24 main_v25
  let main_c_9 : IVec S_ 1 := constantI S_ 1 1#1
  let main_v27 : IVec S_ 1 := (fun x v => Host.reduce IntOp.andi x v reducesTo_S1280x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S512x1280x7x7 .f32) (main_arg1 : FVec F S1x1280 .f32) (main_arg2 : FVec F S1x1280 .f32) (main_arg3 : FVec F S1x1280 .f32) (main_arg4 : FVec F S1x1280 .f32) (main_arg5 : FVec F S1280x128 .f32) (main_arg6 : FVec F S1x128 .f32) (main_arg7 : FVec F S1x128 .f32) (main_arg8 : FVec F S1x128 .f32) (main_arg9 : FVec F S1x128 .f32) (main_arg10 : FVec F S1x128 .f32) : IVec S_ 1 :=
  let main_v0 : FVec F S512x1280x7x7 .f32 := Host.absf main_arg0
  let main_cst : FVec F S_ .f32 := constant S_ .f32 0x7F800000#32
  let main_v1 : FVec F S512x1280x7x7 .f32 := broadcastInDim S512x1280x7x7 ![] bcast_S_S512x1280x7x7 main_cst
  let main_v2 : IVec S512x1280x7x7 1 := cmpf .olt main_v0 main_v1
  let main_c : IVec S_ 1 := constantI S_ 1 1#1
  let main_v3 : IVec S_ 1 := (fun x v => Host.reduce IntOp.andi x v reducesTo_S512x1280x7x7_S_d0_1_2_3 h_S_) main_v2 main_c
  let main_v4 : FVec F S1x1280 .f32 := Host.absf main_arg1
  let main_cst_0 : FVec F S_ .f32 := constant S_ .f32 0x7F800000#32
  let main_v5 : FVec F S1x1280 .f32 := broadcastInDim S1x1280 ![] bcast_S_S1x1280 main_cst_0
  let main_v6 : IVec S1x1280 1 := cmpf .olt main_v4 main_v5
  let main_c_1 : IVec S_ 1 := constantI S_ 1 1#1
  let main_v7 : IVec S_ 1 := (fun x v => Host.reduce IntOp.andi x v reducesTo_S1x1280_S_d0_1 h_S_) main_v6 main_c_1
  let main_v8 : IVec S_ 1 := andi main_v3 main_v7
  let main_v9 : FVec F S1x1280 .f32 := Host.absf main_arg2
  let main_cst_2 : FVec F S_ .f32 := constant S_ .f32 0x7F800000#32
  let main_v10 : FVec F S1x1280 .f32 := broadcastInDim S1x1280 ![] bcast_S_S1x1280 main_cst_2
  let main_v11 : IVec S1x1280 1 := cmpf .olt main_v9 main_v10
  let main_c_3 : IVec S_ 1 := constantI S_ 1 1#1
  let main_v12 : IVec S_ 1 := (fun x v => Host.reduce IntOp.andi x v reducesTo_S1x1280_S_d0_1 h_S_) main_v11 main_c_3
  let main_v13 : IVec S_ 1 := andi main_v8 main_v12
  let main_v14 : FVec F S1x1280 .f32 := Host.absf main_arg3
  let main_cst_4 : FVec F S_ .f32 := constant S_ .f32 0x7F800000#32
  let main_v15 : FVec F S1x1280 .f32 := broadcastInDim S1x1280 ![] bcast_S_S1x1280 main_cst_4
  let main_v16 : IVec S1x1280 1 := cmpf .olt main_v14 main_v15
  fn_part1 (F := F) main_arg4 main_arg5 main_arg6 main_arg7 main_arg8 main_arg9 main_arg10 main_v13 main_v16
-- ==== Kernel.lean ====
abbrev S512x1280x7x7 : Shape := ⟨4, ![512, 1280, 7, 7]⟩
abbrev S1x1280 : Shape := ⟨2, ![1, 1280]⟩
abbrev S1280x128 : Shape := ⟨2, ![1280, 128]⟩
abbrev S1x128 : Shape := ⟨2, ![1, 128]⟩
abbrev S7x7x512x1280 : Shape := ⟨4, ![7, 7, 512, 1280]⟩
abbrev S49x512x1280 : Shape := ⟨3, ![49, 512, 1280]⟩
abbrev S_ : Shape := ⟨0, ![]⟩
abbrev S1280x1 : Shape := ⟨2, ![1280, 1]⟩
abbrev S512x128 : Shape := ⟨2, ![512, 128]⟩
abbrev S49x32x1280 : Shape := ⟨3, ![49, 32, 1280]⟩
abbrev S32x128 : Shape := ⟨2, ![32, 128]⟩
abbrev S32x1280 : Shape := ⟨2, ![32, 1280]⟩

abbrev nBuf : Space → Nat
  | .hbm => 36
  | .vmem => 8
  | .smem => 0
  | _ => 0

abbrev bufTy : (tb : Table) → Fin (tcTables nBuf tb) → BufTy
  | .hbm, ⟨0, _⟩ => ⟨S512x1280x7x7, .f32⟩
  | .hbm, ⟨1, _⟩ => ⟨S1x1280, .f32⟩
  | .hbm, ⟨2, _⟩ => ⟨S1x1280, .f32⟩
  | .hbm, ⟨3, _⟩ => ⟨S1x1280, .f32⟩
  | .hbm, ⟨4, _⟩ => ⟨S1x1280, .f32⟩
  | .hbm, ⟨5, _⟩ => ⟨S1280x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S7x7x512x1280, .f32⟩
  | .hbm, ⟨12, _⟩ => ⟨S49x512x1280, .f32⟩
  | .hbm, ⟨13, _⟩ => ⟨S_, .f32⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S1x1280, .f32⟩
  | .hbm, ⟨18, _⟩ => ⟨S1280x1, .f32⟩
  | .hbm, ⟨19, _⟩ => ⟨S1280x128, .f32⟩
  | .hbm, ⟨20, _⟩ => ⟨S1280x128, .f32⟩
  | .hbm, ⟨21, _⟩ => ⟨S_, .f32⟩
  | .hbm, ⟨22, _⟩ => ⟨S1280x128, .f32⟩
  | .hbm, ⟨23, _⟩ => ⟨S1280x128, .f32⟩
  | .hbm, ⟨24, _⟩ => ⟨S1x1280, .f32⟩
  | .hbm, ⟨25, _⟩ => ⟨S1x1280, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S512x128, .f32⟩
  | .local _ .vmem, ⟨0, _⟩ => ⟨S49x32x1280, .f32⟩
  | .local _ .vmem, ⟨1, _⟩ => ⟨S49x32x1280, .f32⟩
  | .local _ .vmem, ⟨2, _⟩ => ⟨S1280x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S32x128, .f32⟩
  | .local _ .vmem, ⟨7, _⟩ => ⟨S32x128, .f32⟩
  | _, _ => ⟨S512x1280x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_cst_0 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst_1 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x32x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x1280x7x7_S7x7x512x1280_2_3_0_1 : S512x1280x7x7.Transposes [2, 3, 0, 1] S7x7x512x1280
  shapeCasts_S7x7x512x1280_S49x512x1280 : S7x7x512x1280.ShapeCasts S49x512x1280
  bcast_S_S1x1280 : S_.BroadcastsInDim S1x1280 (![] : Fin 0 → Fin S1x1280.rank)
  shapeCasts_S1x1280_S1280x1 : S1x1280.ShapeCasts S1280x1
  bcast_S1280x1_S1280x128_0_1 : S1280x1.BroadcastsInDim S1280x128 (![0, 1] : Fin 2 → Fin S1280x128.rank)
  bcast_S_S1280x128 : S_.BroadcastsInDim S1280x128 (![] : Fin 0 → Fin S1280x128.rank)
  bcast_S_S1x128 : S_.BroadcastsInDim S1x128 (![] : Fin 0 → Fin S1x128.rank)
  inb_S49x32x1280_S49x32x1280_0_0_0 : ∀ a, (![0, 0, 0] : Fin 3 → Nat) a + S49x32x1280.size a ≤ S49x32x1280.size a
  h_S49x32x1280 : 0 < S49x32x1280.numel
  shapeCasts_S49x32x1280_S49x32x1280 : S49x32x1280.ShapeCasts S49x32x1280
  reduces_S49x32x1280_S32x1280 : S49x32x1280.Reduces [0] S32x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  dot_S1x1280_S1280x128_S1x128_1_0_0_1_n_n_wf : DotDims.WF S1x1280 S1280x128 S1x128 [1] [0] [0] [1] [] []
  dot_S32x1280_S1280x128_S32x128_1_0_0_1_n_n_wf : DotDims.WF S32x1280 S1280x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x32x1280.size a ≤ S49x512x1280.size a
  hwx0_0 : ∀ i : grid0.Coords, EltTy.bits .f32 = 32 ∨ (Rect.block (s := S49x512x1280) S49x32x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S512x128.size a
  hwx0_5 : ∀ i : grid0.Coords, EltTy.bits .f32 = 32 ∨ (Rect.block (s := S512x128) S32x128.size (cc0_transform_5 i) (hinb0_5 i)).WholeWords (EltTy.packing .f32)

variable [Facts₀]

def dot_S1x1280_S1280x128_S1x128_1_0_0_1_n_n : DotDims S1x1280 S1280x128 S1x128 where
  lhsContracting := [1]
  rhsContracting := [0]
  lhsNonContracting := [0]
  rhsNonContracting := [1]
  lhsBatch := []
  rhsBatch := []
  wf := dot_S1x1280_S1280x128_S1x128_1_0_0_1_n_n_wf
def dot_S32x1280_S1280x128_S32x128_1_0_0_1_n_n : DotDims S32x1280 S1280x128 S32x128 where
  lhsContracting := [1]
  rhsContracting := [0]
  lhsNonContracting := [0]
  rhsNonContracting := [1]
  lhsBatch := []
  rhsBatch := []
  wf := dot_S32x1280_S1280x128_S32x128_1_0_0_1_n_n_wf

abbrev win0_0 : Pipeline.Window sig grid0 :=
  Pipeline.Window.ofSpec (Memref.whole main_call0_v1) S49x32x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1280x7x7 : Shape := ⟨4, ![512, 1280, 7, 7]⟩
abbrev S1x1280 : Shape := ⟨2, ![1, 1280]⟩
abbrev S1280x128 : Shape := ⟨2, ![1280, 128]⟩
abbrev S1x128 : Shape := ⟨2, ![1, 128]⟩
abbrev S512x1280x49 : Shape := ⟨3, ![512, 1280, 49]⟩
abbrev S_ : Shape := ⟨0, ![]⟩
abbrev S1280x1 : Shape := ⟨2, ![1280, 1]⟩
abbrev S512x128 : Shape := ⟨2, ![512, 128]⟩
abbrev S16x1280x49 : Shape := ⟨3, ![16, 1280, 49]⟩
abbrev S16x128 : Shape := ⟨2, ![16, 128]⟩
abbrev S16x1280 : Shape := ⟨2, ![16, 1280]⟩

abbrev nBuf : Space → Nat
  | .hbm => 35
  | .vmem => 8
  | .smem => 0
  | _ => 0

abbrev bufTy : (tb : Table) → Fin (tcTables nBuf tb) → BufTy
  | .hbm, ⟨0, _⟩ => ⟨S512x1280x7x7, .f32⟩
  | .hbm, ⟨1, _⟩ => ⟨S1x1280, .f32⟩
  | .hbm, ⟨2, _⟩ => ⟨S1x1280, .f32⟩
  | .hbm, ⟨3, _⟩ => ⟨S1x1280, .f32⟩
  | .hbm, ⟨4, _⟩ => ⟨S1x1280, .f32⟩
  | .hbm, ⟨5, _⟩ => ⟨S1280x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S512x1280x49, .f32⟩
  | .hbm, ⟨12, _⟩ => ⟨S_, .f32⟩
  | .hbm, ⟨13, _⟩ => ⟨S1x1280, .f32⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S1280x1, .f32⟩
  | .hbm, ⟨18, _⟩ => ⟨S1280x128, .f32⟩
  | .hbm, ⟨19, _⟩ => ⟨S1280x128, .f32⟩
  | .hbm, ⟨20, _⟩ => ⟨S_, .f32⟩
  | .hbm, ⟨21, _⟩ => ⟨S1280x128, .f32⟩
  | .hbm, ⟨22, _⟩ => ⟨S1280x128, .f32⟩
  | .hbm, ⟨23, _⟩ => ⟨S1x1280, .f32⟩
  | .hbm, ⟨24, _⟩ => ⟨S1x1280, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S512x128, .f32⟩
  | .local _ .vmem, ⟨0, _⟩ => ⟨S16x1280x49, .f32⟩
  | .local _ .vmem, ⟨1, _⟩ => ⟨S16x1280x49, .f32⟩
  | .local _ .vmem, ⟨2, _⟩ => ⟨S1280x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S16x128, .f32⟩
  | .local _ .vmem, ⟨7, _⟩ => ⟨S16x128, .f32⟩
  | _, _ => ⟨S512x1280x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst_1 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1280x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512x1280x7x7_S512x1280x49 : S512x1280x7x7.ShapeCasts S512x1280x49
  bcast_S_S1x1280 : S_.BroadcastsInDim S1x1280 (![] : Fin 0 → Fin S1x1280.rank)
  shapeCasts_S1x1280_S1280x1 : S1x1280.ShapeCasts S1280x1
  bcast_S1280x1_S1280x128_0_1 : S1280x1.BroadcastsInDim S1280x128 (![0, 1] : Fin 2 → Fin S1280x128.rank)
  bcast_S_S1280x128 : S_.BroadcastsInDim S1280x128 (![] : Fin 0 → Fin S1280x128.rank)
  bcast_S_S1x128 : S_.BroadcastsInDim S1x128 (![] : Fin 0 → Fin S1x128.rank)
  inb_S16x1280x49_S16x1280x49_0_0_0 : ∀ a, (![0, 0, 0] : Fin 3 → Nat) a + S16x1280x49.size a ≤ S16x1280x49.size a
  h_S16x1280x49 : 0 < S16x1280x49.numel
  shapeCasts_S16x1280x49_S16x1280x49 : S16x1280x49.ShapeCasts S16x1280x49
  reduces_S16x1280x49_S16x1280 : S16x1280x49.Reduces [2] S16x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  dot_S1x1280_S1280x128_S1x128_1_0_0_1_n_n_wf : DotDims.WF S1x1280 S1280x128 S1x128 [1] [0] [0] [1] [] []
  dot_S16x1280_S1280x128_S16x128_1_0_0_1_n_n_wf : DotDims.WF S16x1280 S1280x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1280x49.size a ≤ S512x1280x49.size a
  hwx0_0 : ∀ i : grid0.Coords, EltTy.bits .f32 = 32 ∨ (Rect.block (s := S512x1280x49) S16x1280x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S512x128.size a
  hwx0_5 : ∀ i : grid0.Coords, EltTy.bits .f32 = 32 ∨ (Rect.block (s := S512x128) S16x128.size (cc0_transform_5 i) (hinb0_5 i)).WholeWords (EltTy.packing .f32)

variable [Facts₀]

def dot_S1x1280_S1280x128_S1x128_1_0_0_1_n_n : DotDims S1x1280 S1280x128 S1x128 where
  lhsContracting := [1]
  rhsContracting := [0]
  lhsNonContracting := [0]
  rhsNonContracting := [1]
  lhsBatch := []
  rhsBatch := []
  wf := dot_S1x1280_S1280x128_S1x128_1_0_0_1_n_n_wf
def dot_S16x1280_S1280x128_S16x128_1_0_0_1_n_n : DotDims S16x1280 S1280x128 S16x128 where
  lhsContracting := [1]
  rhsContracting := [0]
  lhsNonContracting := [0]
  rhsNonContracting := [1]
  lhsBatch := []
  rhsBatch := []
  wf := dot_S16x1280_S1280x128_S16x128_1_0_0_1_n_n_wf

abbrev win0_0 : Pipeline.Window sig grid0 :=
  Pipeline.Window.ofSpec (Memref.whole main_call0_v0) S16x1280x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.HeadSpec.lean ====
/-
  The classifier head as one function of its arrays.

  For a batch of 512 feature maps x(n, c, k) — 1280 channels, 49 spatial positions —, a weight w(c, q), a bias row b,
  a scale row s and a shift row t, the head's output at (n, q) is
      max (Σ_c (Σ_k x(n, c, k)) · w(c, q) + b(0, q)) 0 · s(0, q) + t(0, q):
  the spatial sum of each channel, the product with the weight, the bias, the rectifier, the affine map.
  Both programs compute it; they differ in how the features are laid out in memory (spatial position first, or last) and
  in how many batch rows one step of the grid takes. Depends on no program.
-/
import Idealize.ShloMosaic.Lib.ValueIdx
import Idealize.ShloMosaic.PureOps.Ideal

noncomputable section

namespace Cert.Head

open Idealize.ShloMosaic Idealize.ShloMosaic.ValueIdx

/-- One batch row's output at column q, from that row's features x(c, k). -/
def entry (x : Fin 1280 → Fin 49 → EReal) (w : (⟨2, ![1280, 128]⟩ : Shape).Idx → EReal)
    (b s t : (⟨2, ![1, 128]⟩ : Shape).Idx → EReal) (q : Fin 128) : EReal :=
  max ((∑ c : Fin 1280, (∑ k : Fin 49, x c k) * w (ix2 c q)) + b (ix2 (0 : Fin 1) q)) (Ideal.ofBits .f32 0x00000000#32)
    * s (ix2 (0 : Fin 1) q) + t (ix2 (0 : Fin 1) q)

/-- The whole [512, 128] output. -/
def out (x : Fin 512 → Fin 1280 → Fin 49 → EReal) (w : (⟨2, ![1280, 128]⟩ : Shape).Idx → EReal)
    (b s t : (⟨2, ![1, 128]⟩ : Shape).Idx → EReal) : (⟨2, ![512, 128]⟩ : Shape).Idx → EReal :=
  fun i => entry (x (i 0)) w b s t (i 1)

theorem out_apply (x : Fin 512 → Fin 1280 → Fin 49 → EReal) (w : (⟨2, ![1280, 128]⟩ : Shape).Idx → EReal)
    (b s t : (⟨2, ![1, 128]⟩ : Shape).Idx → EReal) (n : Fin 512) (q : Fin 128) :
    out x w b s t (ix2 n q) = entry (x n) w b s t q := rfl

end Cert.Head

end
-- ==== Proof.LibAxisSum3.lean ====
/-
  The sum of a rank-3 array of extended reals along its leading axis, and along its trailing axis, read at one index.

  A [K, a, b] array reduced by addition along axis 0, from a zero starting value, holds at (p, q) the finite sum over
  k < K of the entry (k, p, q). An [a, b, K] array reduced by addition along axis 2 holds at (p, q) the finite sum of the
  entries (p, q, k). Stated with the operation's own proof arguments as variables, so that a printed reduction meets
  each lemma in term mode whatever proofs it carries. Depends on no program.
-/
import Idealize.ShloMosaic.Lib.ValueIdx
import Idealize.ShloMosaic.PureOps.Ideal.Laws

noncomputable section

namespace Cert.AxisSum3

open Idealize.ShloMosaic Idealize.ShloMosaic.ValueIdx

/-- The sum over the leading axis: entry (p, q) of the reduced array is the sum over k of the entries (k, p, q). -/
theorem lead_sum {K a b : ℕ} (v : FVec Ideal ⟨3, ![K, a, b]⟩ .f32) (h : (⟨3, ![K, a, b]⟩ : Shape).Reduces [0] ⟨2, ![a, b]⟩)
    (hφ : FKind.Formats .f32) (hacc : (0x00000000#32 : BitVec (FTy.f32).bits) = FKind.add.neutral .f32 hφ) (p : Fin a) (q : Fin b) :
    multiReduction .add [0] ⟨2, ![a, b]⟩ v 0x00000000#32 h hφ hacc (ix2 p q) = ∑ k : Fin K, v (ix3 k p q) :=
  (Ideal.multiReduction_add_single v 0x00000000#32 h hφ hacc (ix2 p q)).trans
    (Finset.sum_congr rfl fun k _ => congrArg v (funext fun c => Fin.ext (by
      match c with
      | ⟨0, _⟩ => rfl
      | ⟨1, _⟩ => rfl
      | ⟨2, _⟩ => rfl)))

/-- The sum over the trailing axis: entry (p, q) of the reduced array is the sum over k of the entries (p, q, k). -/
theorem trail_sum {a b K : ℕ} (v : FVec Ideal ⟨3, ![a, b, K]⟩ .f32) (h : (⟨3, ![a, b, K]⟩ : Shape).Reduces [2] ⟨2, ![a, b]⟩)
    (hφ : FKind.Formats .f32) (hacc : (0x00000000#32 : BitVec (FTy.f32).bits) = FKind.add.neutral .f32 hφ) (p : Fin a) (q : Fin b) :
    multiReduction .add [2] ⟨2, ![a, b]⟩ v 0x00000000#32 h hφ hacc (ix2 p q) = ∑ k : Fin K, v (ix3 p q k) :=
  (Ideal.multiReduction_add_single v 0x00000000#32 h hφ hacc (ix2 p q)).trans
    (Finset.sum_congr rfl fun k _ => congrArg v (funext fun c => Fin.ext (by
      match c with
      | ⟨0, _⟩ => rfl
      | ⟨1, _⟩ => rfl
      | ⟨2, _⟩ => rfl)))

end Cert.AxisSum3

end
-- ==== Proof.KernelPayload.lean ====
/-
  What the kernel's body stores, read at one entry.

  The body sums its [49, 32, 1280] block of features over the leading (spatial) axis, multiplies the [32, 1280] sums
  into the [1280, 128] weight, adds the bias row, takes the maximum with zero, scales by one row and shifts by another.
  Entry (p, q) of what it stores is therefore
      max (Σ_c (Σ_k x(k, p, c)) · w(c, q) + b(0, q)) 0 · s(0, q) + t(0, q).
-/
import proofs.«127639_g2000305243462012_pallasbulk_428_6_alg».proof.Proof.Gen.KernelIdeal.Skeleton
import proofs.«127639_g2000305243462012_pallasbulk_428_6_alg».proof.Proof.LibPlainDot
import proofs.«127639_g2000305243462012_pallasbulk_428_6_alg».proof.Proof.HeadSpec
import proofs.«127639_g2000305243462012_pallasbulk_428_6_alg».proof.Proof.LibAxisSum3
import Idealize.ShloMosaic.Lib.Pipeline.Value
import Idealize.ShloMosaic.Lib.ValueLayout

noncomputable section

namespace Cert.KernelIdeal.Bridge

open Idealize.ShloMosaic Idealize.ShloMosaic.ValueIdx Cert.KernelIdeal Cert.KernelIdeal.Gen

/-- The body's product contracts the left operand's columns with the right operand's rows, with no batch axis. -/
theorem plain_dot : Cert.PlainDot.IsPlain dot_S32x1280_S1280x128_S32x128_1_0_0_1_n_n := ⟨rfl, rfl, rfl, rfl, rfl, rfl⟩

/-- Entry (p, q) of the stored block. -/
theorem payload_apply (x0 : FVec Ideal S49x32x1280 .f32) (x1 : FVec Ideal S1280x128 .f32) (x2 x3 x4 : FVec Ideal S1x128 .f32)
    (p : Fin 32) (q : Fin 128) :
    k0_pay1 (F := Ideal) x0 x1 x2 x3 x4 (ix2 p q)
      = Cert.Head.entry (fun c k => x0 (ix3 k p c)) x1 x2 x3 x4 q := by
  unfold Cert.Head.entry
  unfold k0_pay1
  simp only [shapeCast_self, addf_apply, mulf_apply, maximumf_apply, broadcast_apply]
  have hs : ∀ c : Fin 1280,
      (multiReduction .add [0] S32x1280 x0 0x00000000#32 reduces_S49x32x1280_S32x1280 (.inl rfl) rfl : FVec Ideal S32x1280 .f32) (ix2 p c)
        = ∑ k : Fin 49, x0 (ix3 k p c) :=
    fun c => Cert.AxisSum3.lead_sum x0 _ _ _ p c
  rw [Cert.PlainDot.matmul_apply dot_S32x1280_S1280x128_S32x128_1_0_0_1_n_n plain_dot none _ x1 p q,
    broadcastTo_1b_ab_apply x2 _ p q, broadcastTo_1b_ab_apply x3 _ p q, broadcastTo_1b_ab_apply x4 _ p q]
  simp only [hs]
  rfl

/-- A stored block's entry as an entry of the whole output: when the block's features are rows of a [49, 512, 1280]
    array A — row p of the block being row n of A — and the other operands are W, B, S, T, entry (p, q) of the block
    is entry (n, q) of the head's output over A read with the batch index in the middle. -/
theorem block_entry (x0 : FVec Ideal S49x32x1280 .f32) (x1 : FVec Ideal S1280x128 .f32) (x2 x3 x4 : FVec Ideal S1x128 .f32)
    (A : S49x512x1280.Idx → EReal) (W : S1280x128.Idx → EReal) (B S T : S1x128.Idx → EReal)
    (y : S32x128.Idx) (i : S512x128.Idx) (p : Fin 32) (q : Fin 128) (n : Fin 512)
    (hy : y = ix2 p q) (hi : i = ix2 n q) (hx0 : ∀ (k : Fin 49) (ch : Fin 1280), x0 (ix3 k p ch) = A (ix3 k n ch))
    (hx1 : x1 = W) (hx2 : x2 = B) (hx3 : x3 = S) (hx4 : x4 = T) :
    k0_pay1 (F := Ideal) x0 x1 x2 x3 x4 y = Cert.Head.out (fun n ch k => A (ix3 k n ch)) W B S T i := by
  subst hy hi hx1 hx2 hx3 hx4
  rw [payload_apply, Cert.Head.out_apply]
  exact congrArg (fun f => Cert.Head.entry f x1 x2 x3 x4 q) (funext fun ch => funext fun k => hx0 k ch)

end Cert.KernelIdeal.Bridge

end
-- ==== Proof.KernelBlocks.lean ====
/-
  From the kernel's blocks to its whole output array.

  Grid point t takes batch rows 32t … 32t + 31: its feature block is those rows of the [49, 512, 1280] array (all
  spatial positions, all channels), the weight, bias, scale and shift are taken whole at every point, and it writes rows
  32t … 32t + 31 of the [512, 128] output. Each written block is that block of the head's output over the arrays the
  region finds, the sixteen blocks tile the output, so after the run the output array is the head's output.
-/
import proofs.«127639_g2000305243462012_pallasbulk_428_6_alg».proof.Proof.Gen.KernelIdeal.Value
import proofs.«127639_g2000305243462012_pallasbulk_428_6_alg».proof.Proof.KernelPayload
import Idealize.ShloMosaic.Lib.Pipeline.Value

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The head's output over the arrays as the region finds them: the features with the spatial position leading. -/
abbrev result (c : Dev nD) : S512x128.Idx → EReal :=
  Cert.Head.out (fun n ch k => (V m c main_call0_v1 : S49x512x1280.Idx → EReal) (ix3 k n ch))
    (V m c main_call0_v10) (V m c main_call0_v14) (V m c main_call0_v18) (V m c main_call0_v20)

/-- The printed index maps over the sixteen points: the feature block moves along the batch axis with the output block,
    every other block stays at the origin. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the head's output. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S49x32x1280) hz3, View.ld_unit_zero (S := S1280x128) hz2, View.ld_unit_zero (S := S1x128) hz2]
  funext j
  obtain ⟨e00, e01, e02, e10, e11, e20, e21, e30, e31, e40, e41, e50, e51⟩ := idx_facts t
  have ht : t.val < 16 := by have h := t.isLt; have hN : cfg0.N = 16 := N_0; omega
  have hj0 : (j 0).val < 32 := (j 0).isLt
  have hj1 : (j 1).val < 128 := (j 1).isLt
  show k0_pay1 (iblk m c 0 t) (iblk m c 1 t) (iblk m c 2 t) (iblk m c 3 t) (iblk m c 4 t) j
      = result m c (((cfg0.win 5).blk t).view.emb j)
  refine block_entry (iblk m c 0 t) (iblk m c 1 t) (iblk m c 2 t) (iblk m c 3 t) (iblk m c 4 t)
    (V m c main_call0_v1) (V m c main_call0_v10) (V m c main_call0_v14) (V m c main_call0_v18) (V m c main_call0_v20)
    j (((cfg0.win 5).blk t).view.emb j) ⟨(j 0).val, hj0⟩ ⟨(j 1).val, hj1⟩ ⟨32 * t.val + (j 0).val, by omega⟩ ?_ ?_ ?_ ?_ ?_ ?_ ?_
  · funext a; apply Fin.ext
    match a with
    | ⟨0, _⟩ => rfl
    | ⟨1, _⟩ => rfl
  · funext a; apply Fin.ext
    match a with
    | ⟨0, _⟩ => show win0_5.index t (0 : Fin 2) * 32 + 1 * (j 0).val = 32 * t.val + (j 0).val; rw [e50]; omega
    | ⟨1, _⟩ => show win0_5.index t (1 : Fin 2) * 128 + 1 * (j 1).val = (j 1).val; rw [e51]; omega
  · intro k ch
    show V m c main_call0_v1 (((cfg0.win 0).blk t).view.emb (ix3 k ⟨(j 0).val, hj0⟩ ch))
      = V m c main_call0_v1 (ix3 k ⟨32 * t.val + (j 0).val, by omega⟩ ch)
    have h : ((cfg0.win 0).blk t).view.emb (ix3 k ⟨(j 0).val, hj0⟩ ch) = ix3 k ⟨32 * t.val + (j 0).val, by omega⟩ ch := by
      funext a; apply Fin.ext
      match a with
      | ⟨0, _⟩ => show win0_0.index t (0 : Fin 3) * 49 + 1 * k.val = k.val; rw [e00]; omega
      | ⟨1, _⟩ => show win0_0.index t (1 : Fin 3) * 32 + 1 * (j 0).val = 32 * t.val + (j 0).val; rw [e01]; omega
      | ⟨2, _⟩ => show win0_0.index t (2 : Fin 3) * 1280 + 1 * ch.val = ch.val; rw [e02]; omega
    rw [h]
  · funext y
    show V m c main_call0_v10 (((cfg0.win 1).blk t).view.emb y) = V m c main_call0_v10 y
    have h : ((cfg0.win 1).blk t).view.emb y = y := by
      funext a; apply Fin.ext
      match a with
      | ⟨0, _⟩ => show win0_1.index t (0 : Fin 2) * 1280 + 1 * (y 0).val = (y 0).val; rw [e10]; omega
      | ⟨1, _⟩ => show win0_1.index t (1 : Fin 2) * 128 + 1 * (y 1).val = (y 1).val; rw [e11]; omega
    rw [h]
  · funext y
    show V m c main_call0_v14 (((cfg0.win 2).blk t).view.emb y) = V m c main_call0_v14 y
    have h : ((cfg0.win 2).blk t).view.emb y = y := by
      funext a; apply Fin.ext
      match a with
      | ⟨0, _⟩ => show win0_2.index t (0 : Fin 2) * 1 + 1 * (y 0).val = (y 0).val; rw [e20]; omega
      | ⟨1, _⟩ => show win0_2.index t (1 : Fin 2) * 128 + 1 * (y 1).val = (y 1).val; rw [e21]; omega
    rw [h]
  · funext y
    show V m c main_call0_v18 (((cfg0.win 3).blk t).view.emb y) = V m c main_call0_v18 y
    have h : ((cfg0.win 3).blk t).view.emb y = y := by
      funext a; apply Fin.ext
      match a with
      | ⟨0, _⟩ => show win0_3.index t (0 : Fin 2) * 1 + 1 * (y 0).val = (y 0).val; rw [e30]; omega
      | ⟨1, _⟩ => show win0_3.index t (1 : Fin 2) * 128 + 1 * (y 1).val = (y 1).val; rw [e31]; omega
    rw [h]
  · funext y
    show V m c main_call0_v20 (((cfg0.win 4).blk t).view.emb y) = V m c main_call0_v20 y
    have h : ((cfg0.win 4).blk t).view.emb y = y := by
      funext a; apply Fin.ext
      match a with
      | ⟨0, _⟩ => show win0_4.index t (0 : Fin 2) * 1 + 1 * (y 0).val = (y 0).val; rw [e40]; omega
      | ⟨1, _⟩ => show win0_4.index t (1 : Fin 2) * 128 + 1 * (y 1).val = (y 1).val; rw [e41]; omega
    rw [h]

/-- An index of the output is in point t's block iff each coordinate is in the block's range on its axis. -/
theorem mem_blk (t : Fin cfg0.N) (i : S512x128.Idx) :
    i ∈ ((cfg0.win 5).blk t).view.set ↔ ∀ a : Fin 2, win0_5.index t a * S32x128.size a ≤ (i a).val
      ∧ (i a).val < win0_5.index t a * S32x128.size a + S32x128.size a := by
  show i ∈ ((View.whole main_v0).slice (win0_5.rect t)).set ↔ _
  rw [View.set_slice_whole, Rect.mem_set_unit]
  exact Iff.rfl

/-- Every index of the output lies in some point's block: row r in the block of point r / 32. -/
theorem cover (i : S512x128.Idx) :
    ∃ t : Fin cfg0.N, (cfg0.win 5).flush t = true ∧ i ∈ ((cfg0.win 5).blk t).view.set := by
  have hi0 : (i 0).val < 512 := (i 0).isLt
  have hi1 : (i 1).val < 128 := (i 1).isLt
  have hN : cfg0.N = 16 := N_0
  have hq : (i 0).val / 32 < cfg0.N := by rw [hN]; omega
  obtain ⟨-, -, -, -, -, -, -, -, -, -, -, e50, e51⟩ := idx_facts ⟨(i 0).val / 32, hq⟩
  refine ⟨⟨(i 0).val / 32, hq⟩, flush0_5 _, ?_⟩
  rw [mem_blk]
  intro a
  match a with
  | ⟨0, _⟩ =>
    show win0_5.index ⟨(i 0).val / 32, hq⟩ (0 : Fin 2) * 32 ≤ (i 0).val
      ∧ (i 0).val < win0_5.index ⟨(i 0).val / 32, hq⟩ (0 : Fin 2) * 32 + 32
    rw [e50]
    show (i 0).val / 32 * 32 ≤ (i 0).val ∧ (i 0).val < (i 0).val / 32 * 32 + 32
    omega
  | ⟨1, _⟩ =>
    show win0_5.index ⟨(i 0).val / 32, hq⟩ (1 : Fin 2) * 128 ≤ (i 1).val
      ∧ (i 1).val < win0_5.index ⟨(i 0).val / 32, hq⟩ (1 : Fin 2) * 128 + 128
    rw [e51]
    omega

/-- After the run the output array is the head's output over the arrays the region finds. -/
theorem final (c : Dev nD) : (dats m 0 c).arrAt 5 cfg0.N = result m c :=
  (dats m 0 c).arrAt_eq_of_cover 5 (result m c) (fun t _ => flushed_eq m c t) cover

/-- The run, read: the output array at the head's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Bridge

end
-- ==== Proof.KernelHost.lean ====
/-
  The kernel's operands as functions of the program's arguments.

  Before the grid runs, the program lays the features out with the spatial position leading — entry (k, n, c) of the
  [49, 512, 1280] array is the argument's entry (n, c, k / 7, k mod 7) — and folds the two normalizations and the
  pooling mean into a weight, a bias row, a scale row and a shift row. With these the head's output over the region's
  arrays is one function of the eleven arguments.
-/
import proofs.«127639_g2000305243462012_pallasbulk_428_6_alg».proof.Proof.KernelBlocks
import Idealize.ShloMosaic.Lib.StableHlo.Run
import Idealize.ShloMosaic.Lib.Pipeline.Value

noncomputable section

namespace Cert.KernelIdeal.Bridge

open Idealize.ShloMosaic Idealize.ShloMosaic.TcCoe Idealize.ShloMosaic.ValueIdx Idealize.SL.Sem
open Cert.KernelIdeal Cert.KernelIdeal.Gen

/-- The first normalization's channel scale: gamma · (var + ε)^(-1/2). -/
def chanScale (g var : FVec Ideal S1x1280 .f32) : FVec Ideal S1x1280 .f32 :=
  mulf g (Host.rsqrt (F := Ideal) (addf var (broadcastInDim S1x1280 ![] bcast_S_S1x1280 (constant (F := Ideal) S_ .f32 0x3727C5AC#32))))

/-- The folded weight: each row c of the weight scaled by channel c's scale, then by the literal the pooling mean
    is written with. -/
def weight (g var : FVec Ideal S1x1280 .f32) (w : FVec Ideal S1280x128 .f32) : FVec Ideal S1280x128 .f32 :=
  mulf (mulf (broadcastInDim S1280x128 ![0, 1] bcast_S1280x1_S1280x128_0_1
      (shapeCast S1280x1 (chanScale g var) shapeCasts_S1x1280_S1280x1)) w)
    (broadcastInDim S1280x128 ![] bcast_S_S1280x128 (constant (F := Ideal) S_ .f32 0x3CA72F05#32))

/-- The folded bias: (beta − mean · scale) times the weight, plus the linear layer's bias. -/
def bias (g beta mean var : FVec Ideal S1x1280 .f32) (w : FVec Ideal S1280x128 .f32) (lb : FVec Ideal S1x128 .f32) :
    FVec Ideal S1x128 .f32 :=
  addf (Host.dotGeneral (F := Ideal) dot_S1x1280_S1280x128_S1x128_1_0_0_1_n_n none (subf beta (mulf mean (chanScale g var))) w) lb

/-- The second normalization's scale: gamma · (var + ε)^(-1/2). -/
def outScale (g var : FVec Ideal S1x128 .f32) : FVec Ideal S1x128 .f32 :=
  mulf g (Host.rsqrt (F := Ideal) (addf var (broadcastInDim S1x128 ![] bcast_S_S1x128 (constant (F := Ideal) S_ .f32 0x3727C5AC#32))))

/-- The second normalization's shift: beta − mean · scale. -/
def outShift (g beta mean var : FVec Ideal S1x128 .f32) : FVec Ideal S1x128 .f32 :=
  subf beta (mulf mean (outScale g var))

/-- The head's output as a function of the program's eleven arguments: the features read at (n, c, k / 7, k mod 7). -/
def headOfArgs (a0 : S512x1280x7x7.Idx → EReal) (a1 a2 a3 a4 : FVec Ideal S1x1280 .f32) (a5 : FVec Ideal S1280x128 .f32)
    (a6 a7 a8 a9 a10 : FVec Ideal S1x128 .f32) : S512x128.Idx → EReal :=
  Cert.Head.out (fun n ch k => a0 (ix4 n ch ⟨k.val / 7, by omega⟩ ⟨k.val % 7, by omega⟩))
    (weight a1 a4 a5) (bias a1 a2 a3 a4 a5 a6) (outScale a7 a10) (outShift a7 a8 a9 a10)

variable (m : (ℓ : Loc nD τ sig) → Buf (Elt Ideal) ℓ) (ρ : Dev nD → PrngReg)

/-- The feature window's array at (k, n, c) is the argument at (n, c, k / 7, k mod 7): the transpose moves the two
    spatial axes in front, the reshape merges them row-major. -/
theorem feat_apply (c : Dev nD) (k : Fin 49) (n : Fin 512) (ch : Fin 1280) :
    (V m c main_call0_v1 : S49x512x1280.Idx → EReal) (ix3 k n ch)
      = (m ((c : Thread nD τ).loc main_arg0) : S512x1280x7x7.Idx → EReal) (ix4 n ch ⟨k.val / 7, by omega⟩ ⟨k.val % 7, by omega⟩) := by
  have e : (V m c main_call0_v1 : S49x512x1280.Idx → EReal)
      = shapeCast S49x512x1280 (transpose S7x7x512x1280 [2, 3, 0, 1] (m ((c : Thread nD τ).loc main_arg0) : S512x1280x7x7.Idx → EReal)
          transposes_S512x1280x7x7_S7x7x512x1280_2_3_0_1) shapeCasts_S7x7x512x1280_S49x512x1280 := by
    dsimp only [Gen.V, Gen.hostOps0]; after_results_simp; rfl
  rw [e]
  refine (shapeCast_apply _ _ (ix3 k n ch) (ix4 (⟨k.val / 7, by omega⟩ : Fin 7) (⟨k.val % 7, by omega⟩ : Fin 7) n ch) ?_).trans ?_
  · rw [Shape.rowMajor_val_four, Shape.rowMajor_val_three]
    show ((k.val / 7 * 7 + k.val % 7) * 512 + n.val) * 1280 + ch.val = (k.val * 512 + n.val) * 1280 + ch.val
    omega
  · exact transpose_apply _ _ _ _ _ fun b => match b with
      | ⟨0, _⟩ => rfl
      | ⟨1, _⟩ => rfl
      | ⟨2, _⟩ => rfl
      | ⟨3, _⟩ => rfl

/-- The weight window's array, as the region finds it, is the folded weight of the arguments. -/
theorem V_weight (c : Dev nD) : (V m c main_call0_v10 : S1280x128.Idx → EReal)
    = weight (m ((c : Thread nD τ).loc main_arg1)) (m ((c : Thread nD τ).loc main_arg4)) (m ((c : Thread nD τ).loc main_arg5)) := by
  dsimp only [Gen.V, Gen.hostOps0]; after_results_simp; rfl

/-- The bias window's array is the folded bias of the arguments. -/
theorem V_bias (c : Dev nD) : (V m c main_call0_v14 : S1x128.Idx → EReal)
    = bias (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  dsimp only [Gen.V, Gen.hostOps0]; after_results_simp; rfl

/-- The scale window's array is the second normalization's scale. -/
theorem V_scale (c : Dev nD) : (V m c main_call0_v18 : S1x128.Idx → EReal)
    = outScale (m ((c : Thread nD τ).loc main_arg7)) (m ((c : Thread nD τ).loc main_arg10)) := by
  dsimp only [Gen.V, Gen.hostOps0]; after_results_simp; rfl

/-- The shift window's array is the second normalization's shift. -/
theorem V_shift (c : Dev nD) : (V m c main_call0_v20 : S1x128.Idx → EReal)
    = outShift (m ((c : Thread nD τ).loc main_arg7)) (m ((c : Thread nD τ).loc main_arg8)) (m ((c : Thread nD τ).loc main_arg9))
        (m ((c : Thread nD τ).loc main_arg10)) := by
  dsimp only [Gen.V, Gen.hostOps0]; after_results_simp; rfl

/-- The head's output over the region's arrays is the head's output of the arguments. -/
theorem result_eq (c : Dev nD) : result m c
    = headOfArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  unfold headOfArgs
  rw [← V_weight m c, ← V_bias m c, ← V_scale m c, ← V_shift m c]
  exact congrArg (fun x => Cert.Head.out x _ _ _ _) (funext fun n => funext fun ch => funext fun k => feat_apply m c k n ch)

/-- The run, read over the arguments: the output array at the head's output of the arguments, the arguments unchanged. -/
theorem run_args : θ_run defs (onTc (τ := τ) (main (F := Ideal))) ⟨m, fun _ => 0, ρ⟩ fun r => ∀ c : Dev nD,
      r.2.mem ((c : Thread nD τ).loc main_v0)
        = headOfArgs (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (result_eq m c), (h c).2⟩) (run m ρ)

end Cert.KernelIdeal.Bridge

end
-- ==== Proof.RefPayload.lean ====
/-
  What the reference's body stores, read at one entry.

  The reference's body sums its [16, 1280, 49] block of features over the trailing (spatial) axis, multiplies the
  [16, 1280] sums into the [1280, 128] weight, adds the bias row, takes the maximum with zero, scales by one row and
  shifts by another. Entry (p, q) of what it stores is therefore
      max (Σ_c (Σ_k x(p, c, k)) · w(c, q) + b(0, q)) 0 · s(0, q) + t(0, q).
-/
import proofs.«127639_g2000305243462012_pallasbulk_428_6_alg».proof.Proof.Gen.ReferenceIdeal.Skeleton
import proofs.«127639_g2000305243462012_pallasbulk_428_6_alg».proof.Proof.LibPlainDot
import proofs.«127639_g2000305243462012_pallasbulk_428_6_alg».proof.Proof.HeadSpec
import proofs.«127639_g2000305243462012_pallasbulk_428_6_alg».proof.Proof.LibAxisSum3
import Idealize.ShloMosaic.Lib.Pipeline.Value
import Idealize.ShloMosaic.Lib.ValueLayout

noncomputable section

namespace Cert.ReferenceIdeal.Bridge

open Idealize.ShloMosaic Idealize.ShloMosaic.ValueIdx Cert.ReferenceIdeal Cert.ReferenceIdeal.Gen

/-- The body's product contracts the left operand's columns with the right operand's rows, with no batch axis. -/
theorem plain_dot : Cert.PlainDot.IsPlain dot_S16x1280_S1280x128_S16x128_1_0_0_1_n_n := ⟨rfl, rfl, rfl, rfl, rfl, rfl⟩

/-- Entry (p, q) of the stored block. -/
theorem payload_apply (x0 : FVec Ideal S16x1280x49 .f32) (x1 : FVec Ideal S1280x128 .f32) (x2 x3 x4 : FVec Ideal S1x128 .f32)
    (p : Fin 16) (q : Fin 128) :
    k0_pay1 (F := Ideal) x0 x1 x2 x3 x4 (ix2 p q)
      = Cert.Head.entry (fun c k => x0 (ix3 p c k)) x1 x2 x3 x4 q := by
  unfold Cert.Head.entry
  unfold k0_pay1
  simp only [shapeCast_self, addf_apply, mulf_apply, maximumf_apply, broadcast_apply]
  have hs : ∀ c : Fin 1280,
      (multiReduction .add [2] S16x1280 x0 0x00000000#32 reduces_S16x1280x49_S16x1280 (.inl rfl) rfl : FVec Ideal S16x1280 .f32) (ix2 p c)
        = ∑ k : Fin 49, x0 (ix3 p c k) :=
    fun c => Cert.AxisSum3.trail_sum x0 _ _ _ p c
  rw [Cert.PlainDot.matmul_apply dot_S16x1280_S1280x128_S16x128_1_0_0_1_n_n plain_dot none _ x1 p q,
    broadcastTo_1b_ab_apply x2 _ p q, broadcastTo_1b_ab_apply x3 _ p q, broadcastTo_1b_ab_apply x4 _ p q]
  simp only [hs]
  rfl

/-- A stored block's entry as an entry of the whole output: when the block's features are rows of a [512, 1280, 49]
    array A — row p of the block being row n of A — and the other operands are W, B, S, T, entry (p, q) of the block
    is entry (n, q) of the head's output over A. -/
theorem block_entry (x0 : FVec Ideal S16x1280x49 .f32) (x1 : FVec Ideal S1280x128 .f32) (x2 x3 x4 : FVec Ideal S1x128 .f32)
    (A : S512x1280x49.Idx → EReal) (W : S1280x128.Idx → EReal) (B S T : S1x128.Idx → EReal)
    (y : S16x128.Idx) (i : S512x128.Idx) (p : Fin 16) (q : Fin 128) (n : Fin 512)
    (hy : y = ix2 p q) (hi : i = ix2 n q) (hx0 : ∀ (ch : Fin 1280) (k : Fin 49), x0 (ix3 p ch k) = A (ix3 n ch k))
    (hx1 : x1 = W) (hx2 : x2 = B) (hx3 : x3 = S) (hx4 : x4 = T) :
    k0_pay1 (F := Ideal) x0 x1 x2 x3 x4 y = Cert.Head.out (fun n ch k => A (ix3 n ch k)) W B S T i := by
  subst hy hi hx1 hx2 hx3 hx4
  rw [payload_apply, Cert.Head.out_apply]
  exact congrArg (fun f => Cert.Head.entry f x1 x2 x3 x4 q) (funext fun ch => funext fun k => hx0 ch k)

end Cert.ReferenceIdeal.Bridge

end
-- ==== Proof.RefBlocks.lean ====
/-
  From the reference's blocks to its whole output array.

  Grid point t takes batch rows 16t … 16t + 15: its feature block is those rows of the [512, 1280, 49] array (all
  channels, all spatial positions), the weight, bias, scale and shift are taken whole at every point, and it writes rows
  16t … 16t + 15 of the [512, 128] output. Each written block is that block of the head's output over the arrays the
  region finds, the thirty-two blocks tile the output, so after the run the output array is the head's output.
-/
import proofs.«127639_g2000305243462012_pallasbulk_428_6_alg».proof.Proof.Gen.ReferenceIdeal.Value
import proofs.«127639_g2000305243462012_pallasbulk_428_6_alg».proof.Proof.RefPayload
import Idealize.ShloMosaic.Lib.Pipeline.Value

noncomputable section

namespace Cert.ReferenceIdeal.Bridge

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The head's output over the arrays as the region finds them: the features with the batch index leading. -/
abbrev result (c : Dev nD) : S512x128.Idx → EReal :=
  Cert.Head.out (fun n ch k => (V m c main_call0_v0 : S512x1280x49.Idx → EReal) (ix3 n ch k))
    (V m c main_call0_v9) (V m c main_call0_v13) (V m c main_call0_v17) (V m c main_call0_v19)

/-- The printed index maps over the thirty-two points: the feature block moves along the batch axis with the output
    block, every other block stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the head's output. -/
theorem flushed_eq (c : Dev nD) (t : Fin cfg0.N) :
    (dats m 0 c).flushed 5 t = ((cfg0.win 5).blk t).view.read (Elt Ideal) (result m c) := by
  rw [Cert.ReferenceIdeal.Value.flushed5]
  unfold out0_5
  rw [View.canon_unit_zero hz2]
  simp only [View.ld_unit_zero (S := S16x1280x49) hz3, View.ld_unit_zero (S := S1280x128) hz2, View.ld_unit_zero (S := S1x128) hz2]
  funext j
  obtain ⟨e00, e01, e02, e10, e11, e20, e21, e30, e31, e40, e41, e50, e51⟩ := idx_facts t
  have ht : t.val < 32 := by have h := t.isLt; have hN : cfg0.N = 32 := N_0; omega
  have hj0 : (j 0).val < 16 := (j 0).isLt
  have hj1 : (j 1).val < 128 := (j 1).isLt
  show k0_pay1 (iblk m c 0 t) (iblk m c 1 t) (iblk m c 2 t) (iblk m c 3 t) (iblk m c 4 t) j
      = result m c (((cfg0.win 5).blk t).view.emb j)
  refine block_entry (iblk m c 0 t) (iblk m c 1 t) (iblk m c 2 t) (iblk m c 3 t) (iblk m c 4 t)
    (V m c main_call0_v0) (V m c main_call0_v9) (V m c main_call0_v13) (V m c main_call0_v17) (V m c main_call0_v19)
    j (((cfg0.win 5).blk t).view.emb j) ⟨(j 0).val, hj0⟩ ⟨(j 1).val, hj1⟩ ⟨16 * t.val + (j 0).val, by omega⟩ ?_ ?_ ?_ ?_ ?_ ?_ ?_
  · funext a; apply Fin.ext
    match a with
    | ⟨0, _⟩ => rfl
    | ⟨1, _⟩ => rfl
  · funext a; apply Fin.ext
    match a with
    | ⟨0, _⟩ => show win0_5.index t (0 : Fin 2) * 16 + 1 * (j 0).val = 16 * t.val + (j 0).val; rw [e50]; omega
    | ⟨1, _⟩ => show win0_5.index t (1 : Fin 2) * 128 + 1 * (j 1).val = (j 1).val; rw [e51]; omega
  · intro ch k
    show V m c main_call0_v0 (((cfg0.win 0).blk t).view.emb (ix3 ⟨(j 0).val, hj0⟩ ch k))
      = V m c main_call0_v0 (ix3 ⟨16 * t.val + (j 0).val, by omega⟩ ch k)
    have h : ((cfg0.win 0).blk t).view.emb (ix3 ⟨(j 0).val, hj0⟩ ch k) = ix3 ⟨16 * t.val + (j 0).val, by omega⟩ ch k := by
      funext a; apply Fin.ext
      match a with
      | ⟨0, _⟩ => show win0_0.index t (0 : Fin 3) * 16 + 1 * (j 0).val = 16 * t.val + (j 0).val; rw [e00]; omega
      | ⟨1, _⟩ => show win0_0.index t (1 : Fin 3) * 1280 + 1 * ch.val = ch.val; rw [e01]; omega
      | ⟨2, _⟩ => show win0_0.index t (2 : Fin 3) * 49 + 1 * k.val = k.val; rw [e02]; omega
    rw [h]
  · funext y
    show V m c main_call0_v9 (((cfg0.win 1).blk t).view.emb y) = V m c main_call0_v9 y
    have h : ((cfg0.win 1).blk t).view.emb y = y := by
      funext a; apply Fin.ext
      match a with
      | ⟨0, _⟩ => show win0_1.index t (0 : Fin 2) * 1280 + 1 * (y 0).val = (y 0).val; rw [e10]; omega
      | ⟨1, _⟩ => show win0_1.index t (1 : Fin 2) * 128 + 1 * (y 1).val = (y 1).val; rw [e11]; omega
    rw [h]
  · funext y
    show V m c main_call0_v13 (((cfg0.win 2).blk t).view.emb y) = V m c main_call0_v13 y
    have h : ((cfg0.win 2).blk t).view.emb y = y := by
      funext a; apply Fin.ext
      match a with
      | ⟨0, _⟩ => show win0_2.index t (0 : Fin 2) * 1 + 1 * (y 0).val = (y 0).val; rw [e20]; omega
      | ⟨1, _⟩ => show win0_2.index t (1 : Fin 2) * 128 + 1 * (y 1).val = (y 1).val; rw [e21]; omega
    rw [h]
  · funext y
    show V m c main_call0_v17 (((cfg0.win 3).blk t).view.emb y) = V m c main_call0_v17 y
    have h : ((cfg0.win 3).blk t).view.emb y = y := by
      funext a; apply Fin.ext
      match a with
      | ⟨0, _⟩ => show win0_3.index t (0 : Fin 2) * 1 + 1 * (y 0).val = (y 0).val; rw [e30]; omega
      | ⟨1, _⟩ => show win0_3.index t (1 : Fin 2) * 128 + 1 * (y 1).val = (y 1).val; rw [e31]; omega
    rw [h]
  · funext y
    show V m c main_call0_v19 (((cfg0.win 4).blk t).view.emb y) = V m c main_call0_v19 y
    have h : ((cfg0.win 4).blk t).view.emb y = y := by
      funext a; apply Fin.ext
      match a with
      | ⟨0, _⟩ => show win0_4.index t (0 : Fin 2) * 1 + 1 * (y 0).val = (y 0).val; rw [e40]; omega
      | ⟨1, _⟩ => show win0_4.index t (1 : Fin 2) * 128 + 1 * (y 1).val = (y 1).val; rw [e41]; omega
    rw [h]

/-- An index of the output is in point t's block iff each coordinate is in the block's range on its axis. -/
theorem mem_blk (t : Fin cfg0.N) (i : S512x128.Idx) :
    i ∈ ((cfg0.win 5).blk t).view.set ↔ ∀ a : Fin 2, win0_5.index t a * S16x128.size a ≤ (i a).val
      ∧ (i a).val < win0_5.index t a * S16x128.size a + S16x128.size a := by
  show i ∈ ((View.whole main_v0).slice (win0_5.rect t)).set ↔ _
  rw [View.set_slice_whole, Rect.mem_set_unit]
  exact Iff.rfl

/-- Every index of the output lies in some point's block: row r in the block of point r / 16. -/
theorem cover (i : S512x128.Idx) :
    ∃ t : Fin cfg0.N, (cfg0.win 5).flush t = true ∧ i ∈ ((cfg0.win 5).blk t).view.set := by
  have hi0 : (i 0).val < 512 := (i 0).isLt
  have hi1 : (i 1).val < 128 := (i 1).isLt
  have hN : cfg0.N = 32 := N_0
  have hq : (i 0).val / 16 < cfg0.N := by rw [hN]; omega
  obtain ⟨-, -, -, -, -, -, -, -, -, -, -, e50, e51⟩ := idx_facts ⟨(i 0).val / 16, hq⟩
  refine ⟨⟨(i 0).val / 16, hq⟩, flush0_5 _, ?_⟩
  rw [mem_blk]
  intro a
  match a with
  | ⟨0, _⟩ =>
    show win0_5.index ⟨(i 0).val / 16, hq⟩ (0 : Fin 2) * 16 ≤ (i 0).val
      ∧ (i 0).val < win0_5.index ⟨(i 0).val / 16, hq⟩ (0 : Fin 2) * 16 + 16
    rw [e50]
    show (i 0).val / 16 * 16 ≤ (i 0).val ∧ (i 0).val < (i 0).val / 16 * 16 + 16
    omega
  | ⟨1, _⟩ =>
    show win0_5.index ⟨(i 0).val / 16, hq⟩ (1 : Fin 2) * 128 ≤ (i 1).val
      ∧ (i 1).val < win0_5.index ⟨(i 0).val / 16, hq⟩ (1 : Fin 2) * 128 + 128
    rw [e51]
    omega

/-- After the run the output array is the head's output over the arrays the region finds. -/
theorem final (c : Dev nD) : (dats m 0 c).arrAt 5 cfg0.N = result m c :=
  (dats m 0 c).arrAt_eq_of_cover 5 (result m c) (fun t _ => flushed_eq m c t) cover

/-- The run, read: the output array at the head's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.ReferenceIdeal.Value.run_blocks m ρ)

end Cert.ReferenceIdeal.Bridge

end
-- ==== Proof.RefHost.lean ====
/-
  The reference's operands as functions of the program's arguments.

  Before the grid runs, the reference merges the two spatial axes of the features — entry (n, c, k) of the
  [512, 1280, 49] array is the argument's entry (n, c, k / 7, k mod 7) — and folds the two normalizations and the pooling
  mean into a weight, a bias row, a scale row and a shift row, by the same operations as the kernel's program. With these
  the head's output over the region's arrays is one function of the eleven arguments.
-/
import proofs.«127639_g2000305243462012_pallasbulk_428_6_alg».proof.Proof.RefBlocks
import Idealize.ShloMosaic.Lib.StableHlo.Run
import Idealize.ShloMosaic.Lib.Pipeline.Value

noncomputable section

namespace Cert.ReferenceIdeal.Bridge

open Idealize.ShloMosaic Idealize.ShloMosaic.TcCoe Idealize.ShloMosaic.ValueIdx Idealize.SL.Sem
open Cert.ReferenceIdeal Cert.ReferenceIdeal.Gen

/-- The first normalization's channel scale: gamma · (var + ε)^(-1/2). -/
def chanScale (g var : FVec Ideal S1x1280 .f32) : FVec Ideal S1x1280 .f32 :=
  mulf g (Host.rsqrt (F := Ideal) (addf var (broadcastInDim S1x1280 ![] bcast_S_S1x1280 (constant (F := Ideal) S_ .f32 0x3727C5AC#32))))

/-- The folded weight: each row c of the weight scaled by channel c's scale, then by the literal the pooling mean
    is written with. -/
def weight (g var : FVec Ideal S1x1280 .f32) (w : FVec Ideal S1280x128 .f32) : FVec Ideal S1280x128 .f32 :=
  mulf (mulf (broadcastInDim S1280x128 ![0, 1] bcast_S1280x1_S1280x128_0_1
      (shapeCast S1280x1 (chanScale g var) shapeCasts_S1x1280_S1280x1)) w)
    (broadcastInDim S1280x128 ![] bcast_S_S1280x128 (constant (F := Ideal) S_ .f32 0x3CA72F05#32))

/-- The folded bias: (beta − mean · scale) times the weight, plus the linear layer's bias. -/
def bias (g beta mean var : FVec Ideal S1x1280 .f32) (w : FVec Ideal S1280x128 .f32) (lb : FVec Ideal S1x128 .f32) :
    FVec Ideal S1x128 .f32 :=
  addf (Host.dotGeneral (F := Ideal) dot_S1x1280_S1280x128_S1x128_1_0_0_1_n_n none (subf beta (mulf mean (chanScale g var))) w) lb

/-- The second normalization's scale: gamma · (var + ε)^(-1/2). -/
def outScale (g var : FVec Ideal S1x128 .f32) : FVec Ideal S1x128 .f32 :=
  mulf g (Host.rsqrt (F := Ideal) (addf var (broadcastInDim S1x128 ![] bcast_S_S1x128 (constant (F := Ideal) S_ .f32 0x3727C5AC#32))))

/-- The second normalization's shift: beta − mean · scale. -/
def outShift (g beta mean var : FVec Ideal S1x128 .f32) : FVec Ideal S1x128 .f32 :=
  subf beta (mulf mean (outScale g var))

/-- The head's output as a function of the program's eleven arguments: the features read at (n, c, k / 7, k mod 7). -/
def headOfArgs (a0 : S512x1280x7x7.Idx → EReal) (a1 a2 a3 a4 : FVec Ideal S1x1280 .f32) (a5 : FVec Ideal S1280x128 .f32)
    (a6 a7 a8 a9 a10 : FVec Ideal S1x128 .f32) : S512x128.Idx → EReal :=
  Cert.Head.out (fun n ch k => a0 (ix4 n ch ⟨k.val / 7, by omega⟩ ⟨k.val % 7, by omega⟩))
    (weight a1 a4 a5) (bias a1 a2 a3 a4 a5 a6) (outScale a7 a10) (outShift a7 a8 a9 a10)

variable (m : (ℓ : Loc nD τ sig) → Buf (Elt Ideal) ℓ) (ρ : Dev nD → PrngReg)

/-- The feature window's array at (n, c, k) is the argument at (n, c, k / 7, k mod 7): the reshape merges the two
    spatial axes row-major. -/
theorem feat_apply (c : Dev nD) (n : Fin 512) (ch : Fin 1280) (k : Fin 49) :
    (V m c main_call0_v0 : S512x1280x49.Idx → EReal) (ix3 n ch k)
      = (m ((c : Thread nD τ).loc main_arg0) : S512x1280x7x7.Idx → EReal) (ix4 n ch ⟨k.val / 7, by omega⟩ ⟨k.val % 7, by omega⟩) := by
  have e : (V m c main_call0_v0 : S512x1280x49.Idx → EReal)
      = shapeCast S512x1280x49 (m ((c : Thread nD τ).loc main_arg0) : S512x1280x7x7.Idx → EReal) shapeCasts_S512x1280x7x7_S512x1280x49 := by
    dsimp only [Gen.V, Gen.hostOps0]; after_results_simp; rfl
  rw [e]
  refine shapeCast_apply _ _ (ix3 n ch k) (ix4 n ch (⟨k.val / 7, by omega⟩ : Fin 7) (⟨k.val % 7, by omega⟩ : Fin 7)) ?_
  rw [Shape.rowMajor_val_four, Shape.rowMajor_val_three]
  show ((n.val * 1280 + ch.val) * 7 + k.val / 7) * 7 + k.val % 7 = (n.val * 1280 + ch.val) * 49 + k.val
  omega

/-- The weight window's array, as the region finds it, is the folded weight of the arguments. -/
theorem V_weight (c : Dev nD) : (V m c main_call0_v9 : S1280x128.Idx → EReal)
    = weight (m ((c : Thread nD τ).loc main_arg1)) (m ((c : Thread nD τ).loc main_arg4)) (m ((c : Thread nD τ).loc main_arg5)) := by
  dsimp only [Gen.V, Gen.hostOps0]; after_results_simp; rfl

/-- The bias window's array is the folded bias of the arguments. -/
theorem V_bias (c : Dev nD) : (V m c main_call0_v13 : S1x128.Idx → EReal)
    = bias (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  dsimp only [Gen.V, Gen.hostOps0]; after_results_simp; rfl

/-- The scale window's array is the second normalization's scale. -/
theorem V_scale (c : Dev nD) : (V m c main_call0_v17 : S1x128.Idx → EReal)
    = outScale (m ((c : Thread nD τ).loc main_arg7)) (m ((c : Thread nD τ).loc main_arg10)) := by
  dsimp only [Gen.V, Gen.hostOps0]; after_results_simp; rfl

/-- The shift window's array is the second normalization's shift. -/
theorem V_shift (c : Dev nD) : (V m c main_call0_v19 : S1x128.Idx → EReal)
    = outShift (m ((c : Thread nD τ).loc main_arg7)) (m ((c : Thread nD τ).loc main_arg8)) (m ((c : Thread nD τ).loc main_arg9))
        (m ((c : Thread nD τ).loc main_arg10)) := by
  dsimp only [Gen.V, Gen.hostOps0]; after_results_simp; rfl

/-- The head's output over the region's arrays is the head's output of the arguments. -/
theorem result_eq (c : Dev nD) : result m c
    = headOfArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  unfold headOfArgs
  rw [← V_weight m c, ← V_bias m c, ← V_scale m c, ← V_shift m c]
  exact congrArg (fun x => Cert.Head.out x _ _ _ _) (funext fun n => funext fun ch => funext fun k => feat_apply m c n ch k)

/-- The run, read over the arguments: the output array at the head's output of the arguments, the arguments unchanged. -/
theorem run_args : θ_run defs (onTc (τ := τ) (main (F := Ideal))) ⟨m, fun _ => 0, ρ⟩ fun r => ∀ c : Dev nD,
      r.2.mem ((c : Thread nD τ).loc main_v0)
        = headOfArgs (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (result_eq m c), (h c).2⟩) (run m ρ)

end Cert.ReferenceIdeal.Bridge

end
-- ==== Proof.lean ====
/-
  A classifier head — the spatial mean of 512 feature maps of 1280 channels over 7 × 7 positions, a normalization of
  the channels, a linear layer into 128 outputs with its bias, a rectifier and a second normalization — computed by two
  programs that agree as functions on the extended reals.

  Both programs fold the two normalizations and the pooling mean into a weight, a bias row, a scale row and a shift row
  by the same operations with the same literals, and then run one grid whose step sums the features of a block of batch
  rows over the 49 spatial positions, multiplies the sums into the folded weight, adds the bias, takes the maximum with
  zero, scales and shifts. They differ in layout and tiling only: the kernel's program moves the spatial axes in front,
  sums over the leading axis and takes 32 batch rows per step over 16 steps; the reference keeps the batch index in
  front, sums over the trailing axis and takes 16 rows per step over 32 steps. At the exact instance each stored entry is
      max (Σ_c (Σ_k x(n, c, k)) · w(c, q) + b(q)) 0 · s(q) + t(q)
  with the same 49 summands in the same order on both sides, so the two results are one function of the arguments; no
  law that needs finite inputs is used, and the precondition is never opened.

  The frames are the generated ones; the idealization rewrote no operation, so there is nothing to preserve.
-/
import proofs.«127639_g2000305243462012_pallasbulk_428_6_alg».proof.Defs
import proofs.«127639_g2000305243462012_pallasbulk_428_6_alg».proof.Proof.Gen.Kernel
import proofs.«127639_g2000305243462012_pallasbulk_428_6_alg».proof.Proof.Gen.Kernel.Frame
import proofs.«127639_g2000305243462012_pallasbulk_428_6_alg».proof.Proof.Gen.KernelIdeal
import proofs.«127639_g2000305243462012_pallasbulk_428_6_alg».proof.Proof.Gen.KernelIdeal.Frame
import proofs.«127639_g2000305243462012_pallasbulk_428_6_alg».proof.Proof.Gen.KernelIdeal.Value
import proofs.«127639_g2000305243462012_pallasbulk_428_6_alg».proof.Proof.Gen.ReferenceIdeal
import proofs.«127639_g2000305243462012_pallasbulk_428_6_alg».proof.Proof.Gen.ReferenceIdeal.Frame
import proofs.«127639_g2000305243462012_pallasbulk_428_6_alg».proof.Proof.Gen.ReferenceIdeal.Value
import proofs.«127639_g2000305243462012_pallasbulk_428_6_alg».proof.Proof.Gen.Pre_finite_inputs
import proofs.«127639_g2000305243462012_pallasbulk_428_6_alg».proof.Proof.KernelHost
import proofs.«127639_g2000305243462012_pallasbulk_428_6_alg».proof.Proof.RefHost

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ => Cert.ReferenceIdeal.Gen.frame m ρ

/-- The idealization rewrote no operation. -/
theorem preserves : Cert.preserves_Kernel_KernelIdeal := trivial

/-- The two programs' heads are one function of the eleven arguments: the folded weight, bias, scale and shift are
    built by the same operations with the same literals, and the features are read at the same entry (n, c, k / 7, k mod 7). -/
theorem head_same (a0 : Cert.KernelIdeal.S512x1280x7x7.Idx → EReal) (a1 a2 a3 a4 : FVec Ideal Cert.KernelIdeal.S1x1280 .f32)
    (a5 : FVec Ideal Cert.KernelIdeal.S1280x128 .f32) (a6 a7 a8 a9 a10 : FVec Ideal Cert.KernelIdeal.S1x128 .f32) :
    Cert.ReferenceIdeal.Bridge.headOfArgs a0 a1 a2 a3 a4 a5 a6 a7 a8 a9 a10
      = Cert.KernelIdeal.Bridge.headOfArgs a0 a1 a2 a3 a4 a5 a6 a7 a8 a9 a10 := rfl

/-- From memories that agree on the arguments both idealized programs end with the head's output of the arguments in
    their result array. -/
theorem algebraic : Cert.algebraic_KernelIdeal_ReferenceIdeal := by
  intro m ρ m' ρ' _ hagree
  refine ⟨fun c => Cert.KernelIdeal.Bridge.headOfArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Bridge.run_args m ρ, ?_⟩
  refine (θ_run Cert.ReferenceIdeal.defs _ _).mono (fun _ h c => ⟨(h c).1.trans ?_, (h c).2⟩)
    (Cert.ReferenceIdeal.Bridge.run_args m' ρ')
  obtain ⟨h0, h1, h2, h3, h4, h5, h6, h7, h8, h9, h10⟩ := hagree c
  rw [h0, h1, h2, h3, h4, h5, h6, h7, h8, h9, h10]
  exact head_same _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
